-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1024x1280 : Shape := ⟨2, ![1024, 1280]⟩
abbrev S64x256 : Shape := ⟨2, ![64, 256]⟩
abbrev S256 : Shape := ⟨1, ![256]⟩
abbrev S1280x256 : Shape := ⟨2, ![1280, 256]⟩
abbrev S512x256 : Shape := ⟨2, ![512, 256]⟩
abbrev S256x1 : Shape := ⟨2, ![256, 1]⟩
abbrev S1 : Shape := ⟨1, ![1]⟩
abbrev S2x800000 : Shape := ⟨2, ![2, 800000]⟩
abbrev S50000 : Shape := ⟨1, ![50000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1024x1280 : S_.BroadcastsInDim S1024x1280 (![] : Fin 0 → Fin S1024x1280.rank)
  reducesTo_S1024x1280_S_d0_1 : S1024x1280.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S1280x256 : S_.BroadcastsInDim S1280x256 (![] : Fin 0 → Fin S1280x256.rank)
  reducesTo_S1280x256_S_d0_1 : S1280x256.ReducesTo [0, 1] S_
  bcast_S_S512x256 : S_.BroadcastsInDim S512x256 (![] : Fin 0 → Fin S512x256.rank)
  reducesTo_S512x256_S_d0_1 : S512x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S512x256 .f32) (main_arg8 : FVec F S256 .f32) (main_arg9 : FVec F S256x1 .f32) (main_arg10 : FVec F S1 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1 .f32 := Host.absf main_arg9
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S64x256 .f32) (main_arg5 : FVec F S1280x256 .f32) (main_arg6 : FVec F S256 .f32) (main_arg7 : FVec F S512x256 .f32) (main_arg8 : FVec F S256 .f32) (main_arg9 : FVec F S256x1 .f32) (main_arg10 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S1280x256 .f32 := Host.absf main_arg5
  let main_cst_8 : FVec F S_ .f32 := constant S_ .f32 0x7F800000#32
  let main_v25 : FVec F S1280x256 .f32 := broadcastInDim S1280x256 ![] bcast_S_S1280x256 main_cst_8
  let main_v26 : IVec S1280x256 1 := cmpf .olt main_v24 main_v25
  let main_c_9 : IVec S_ 1 := constantI S_ 1 1#1
  let main_v27 : IVec S_ 1 := (fun x v => Host.reduce IntOp.andi x v reducesTo_S1280x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x64 .f32) (main_arg1 : FVec F S1024x1280 .f32) (main_arg2 : FVec F S64x256 .f32) (main_arg3 : FVec F S256 .f32) (main_arg4 : FVec F S64x256 .f32) (main_arg5 : FVec F S1280x256 .f32) (main_arg6 : FVec F S256 .f32) (main_arg7 : FVec F S512x256 .f32) (main_arg8 : FVec F S256 .f32) (main_arg9 : FVec F S256x1 .f32) (main_arg10 : FVec F S1 .f32) (main_arg11 : IVec S2x800000 32) (main_arg12 : IVec S50000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1024x1280 .f32 := Host.absf main_arg1
  let main_cst_0 : FVec F S_ .f32 := constant S_ .f32 0x7F800000#32
  let main_v5 : FVec F S1024x1280 .f32 := broadcastInDim S1024x1280 ![] bcast_S_S1024x1280 main_cst_0
  let main_v6 : IVec S1024x1280 1 := cmpf .olt main_v4 main_v5
  let main_c_1 : IVec S_ 1 := constantI S_ 1 1#1
  let main_v7 : IVec S_ 1 := (fun x v => Host.reduce IntOp.andi x v reducesTo_S1024x1280_S_d0_1 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_v13 main_v16
-- ==== Kernel.lean ====
abbrev S50000x64 : Shape := ⟨2, ![50000, 64]⟩
abbrev S1024x1280 : Shape := ⟨2, ![1024, 1280]⟩
abbrev S64x256 : Shape := ⟨2, ![64, 256]⟩
abbrev S256 : Shape := ⟨1, ![256]⟩
abbrev S1280x256 : Shape := ⟨2, ![1280, 256]⟩
abbrev S512x256 : Shape := ⟨2, ![512, 256]⟩
abbrev S256x1 : Shape := ⟨2, ![256, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S50000x256 : Shape := ⟨2, ![50000, 256]⟩
abbrev S2000x64 : Shape := ⟨2, ![2000, 64]⟩
abbrev S2000x256 : Shape := ⟨2, ![2000, 256]⟩
abbrev S1x256 : Shape := ⟨2, ![1, 256]⟩
abbrev S1024x256 : Shape := ⟨2, ![1024, 256]⟩
abbrev S1024 : Shape := ⟨1, ![1024]⟩
abbrev S1024x1 : Shape := ⟨2, ![1024, 1]⟩
abbrev S256x256 : Shape := ⟨2, ![256, 256]⟩
abbrev S256x1280 : Shape := ⟨2, ![256, 1280]⟩
abbrev S256x512 : Shape := ⟨2, ![256, 512]⟩
abbrev S1x1 : Shape := ⟨2, ![1, 1]⟩

abbrev nBuf : Space → Nat
  | .hbm => 60
  | .vmem => 21
  | .smem => 0
  | _ => 0

abbrev bufTy : (tb : Table) → Fin (tcTables nBuf tb) → BufTy
  | .hbm, ⟨0, _⟩ => ⟨S50000x64, .f32⟩
  | .hbm, ⟨1, _⟩ => ⟨S1024x1280, .f32⟩
  | .hbm, ⟨2, _⟩ => ⟨S64x256, .f32⟩
  | .hbm, ⟨3, _⟩ => ⟨S256, .f32⟩
  | .hbm, ⟨4, _⟩ => ⟨S64x256, .f32⟩
  | .hbm, ⟨5, _⟩ => ⟨S1280x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S2x800000, .i32⟩
  | .hbm, ⟨12, _⟩ => ⟨S50000, .i32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S_, .f32⟩
  | .hbm, ⟨27, _⟩ => ⟨S50000x64, .f32⟩
  | .hbm, ⟨28, _⟩ => ⟨S800000x1, .i32⟩
  | .hbm, ⟨29, _⟩ => ⟨S50000x64, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S50000, .f32⟩
  | .hbm, ⟨34, _⟩ => ⟨S800000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x64, .f32⟩
  | .hbm, ⟨41, _⟩ => ⟨S50000x64, .f32⟩
  | .hbm, ⟨42, _⟩ => ⟨S50000x256, .f32⟩
  | .hbm, ⟨43, _⟩ => ⟨S_, .f32⟩
  | .hbm, ⟨44, _⟩ => ⟨S1024x256, .f32⟩
  | .hbm, ⟨45, _⟩ => ⟨S50000x1, .i32⟩
  | .hbm, ⟨46, _⟩ => ⟨S1024x256, .f32⟩
  | .hbm, ⟨47, _⟩ => ⟨S_, .f32⟩
  | .hbm, ⟨48, _⟩ => ⟨S50000, .f32⟩
  | .hbm, ⟨49, _⟩ => ⟨S_, .f32⟩
  | .hbm, ⟨50, _⟩ => ⟨S1024, .f32⟩
  | .hbm, ⟨51, _⟩ => ⟨S50000x1, .i32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S1024x1, .f32⟩
  | .hbm, ⟨57, _⟩ => ⟨S1024x256, .f32⟩
  | .hbm, ⟨58, _⟩ => ⟨S1024x256, .f32⟩
  | .hbm, ⟨59, _⟩ => ⟨S1024x1, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x256, .f32⟩
  | .local _ .vmem, ⟨5, _⟩ => ⟨S256, .f32⟩
  | .local _ .vmem, ⟨6, _⟩ => ⟨S64x256, .f32⟩
  | .local _ .vmem, ⟨7, _⟩ => ⟨S2000x256, .f32⟩
  | .local _ .vmem, ⟨8, _⟩ => ⟨S2000x256, .f32⟩
  | .local _ .vmem, ⟨9, _⟩ => ⟨S256x256, .f32⟩
  | .local _ .vmem, ⟨10, _⟩ => ⟨S256x256, .f32⟩
  | .local _ .vmem, ⟨11, _⟩ => ⟨S256x1280, .f32⟩
  | .local _ .vmem, ⟨12, _⟩ => ⟨S256x1280, .f32⟩
  | .local _ .vmem, ⟨13, _⟩ => ⟨S1280x256, .f32⟩
  | .local _ .vmem, ⟨14, _⟩ => ⟨S256, .f32⟩
  | .local _ .vmem, ⟨15, _⟩ => ⟨S512x256, .f32⟩
  | .local _ .vmem, ⟨16, _⟩ => ⟨S256, .f32⟩
  | .local _ .vmem, ⟨17, _⟩ => ⟨S256x1, .f32⟩
  | .local _ .vmem, ⟨18, _⟩ => ⟨S1, .f32⟩
  | .local _ .vmem, ⟨19, _⟩ => ⟨S256x1, .f32⟩
  | .local _ .vmem, ⟨20, _⟩ => ⟨S256x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1280 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1280x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  shapeCasts_S2000x64_S2000x64 : S2000x64.ShapeCasts S2000x64
  inb_S64x256_S64x256_0_0 : ∀ a, (![0, 0] : Fin 2 → Nat) a + S64x256.size a ≤ S64x256.size a
  h_S64x256 : 0 < S64x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1280_S256x1280_0_0 : ∀ a, (![0, 0] : Fin 2 → Nat) a + S256x1280.size a ≤ S256x1280.size a
  h_S256x1280 : 0 < S256x1280.numel
  inb_S1280x256_S1280x256_0_0 : ∀ a, (![0, 0] : Fin 2 → Nat) a + S1280x256.size a ≤ S1280x256.size a
  h_S1280x256 : 0 < S1280x256.numel
  broadcasts_S1x256_S256x256 : S1x256.Broadcasts S256x256
  concatenates_S256x256_S256x256_S256x512_d1 : Shape.Concatenates [S256x256, S256x256] S256x512 1
  inb_S512x256_S512x256_0_0 : ∀ a, (![0, 0] : Fin 2 → Nat) a + S512x256.size a ≤ S512x256.size a
  h_S512x256 : 0 < S512x256.numel
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S256x1 : S1x1.Broadcasts S256x1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S2000x64_S64x256_S2000x256_1_0_0_1_n_n_wf : DotDims.WF S2000x64 S64x256 S2000x256 [1] [0] [0] [1] [] []
  scatter_S1024x256_S50000x1_S50000x256_1_0_0_1_wf : ScatterDims.WF S1024x256 S50000x1 S50000x256 [1] [0] [0] 1
  scatter_S1024_S50000x1_S50000_n_0_0_1_wf : ScatterDims.WF S1024 S50000x1 S50000 [] [0] [0] 1
  dot_S256x1280_S1280x256_S256x256_1_0_0_1_n_n_wf : DotDims.WF S256x1280 S1280x256 S256x256 [1] [0] [0] [1] [] []
  dot_S256x512_S512x256_S256x256_1_0_0_1_n_n_wf : DotDims.WF S256x512 S512x256 S256x256 [1] [0] [0] [1] [] []
  dot_S256x256_S256x1_S256x1_1_0_0_1_n_n_wf : DotDims.WF S256x256 S256x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S1024x256.size a
  hwx1_0 : ∀ i : grid1.Coords, EltTy.bits .f32 = 32 ∨ (Rect.block (s := S1024x256) S256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1280.size a ≤ S1024x1280.size a
  hwx1_1 : ∀ i : grid1.Coords, EltTy.bits .f32 = 32 ∨ (Rect.block (s := S1024x1280) S256x1280.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1280x256.size a ≤ S1280x256.size a
  hwx1_2 : ∀ i : grid1.Coords, EltTy.bits .f32 = 32 ∨ (Rect.block (s := S1280x256) S1280x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S512x256.size a
  hwx1_4 : ∀ i : grid1.Coords, EltTy.bits .f32 = 32 ∨ (Rect.block (s := S512x256) S512x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x1.size a ≤ S256x1.size a
  hwx1_6 : ∀ i : grid1.Coords, EltTy.bits .f32 = 32 ∨ (Rect.block (s := S256x1) S256x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1.size a ≤ S1.size a
  hwx1_7 : ∀ i : grid1.Coords, EltTy.bits .f32 = 32 ∨ (Rect.block (s := S1) S1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x1.size a ≤ S1024x1.size a
  hwx1_8 : ∀ i : grid1.Coords, EltTy.bits .f32 = 32 ∨ (Rect.block (s := S1024x1) S256x1.size (cc1_transform_8 i) (hinb1_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def scatter_S1024x256_S50000x1_S50000x256_1_0_0_1 : ScatterDims S1024x256 S50000x1 S50000x256 where
  updateWindowDims := [1]
  insertedWindowDims := [0]
  scatterDimsToOperandDims := [0]
  indexVectorDim := 1
  wf := scatter_S1024x256_S50000x1_S50000x256_1_0_0_1_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def dot_S256x1280_S1280x256_S256x256_1_0_0_1_n_n : DotDims S256x1280 S1280x256 S256x256 where
  lhsContracting := [1]
  rhsContracting := [0]
  lhsNonContracting := [0]
  rhsNonContracting := [1]
  lhsBatch := []
  rhsBatch := []
  wf := dot_S256x1280_S1280x256_S256x256_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x1280.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1280x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S512x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S256x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36) S256x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x64 : Shape := ⟨2, ![50000, 64]⟩
abbrev S1024x1280 : Shape := ⟨2, ![1024, 1280]⟩
abbrev S64x256 : Shape := ⟨2, ![64, 256]⟩
abbrev S256 : Shape := ⟨1, ![256]⟩
abbrev S1280x256 : Shape := ⟨2, ![1280, 256]⟩
abbrev S512x256 : Shape := ⟨2, ![512, 256]⟩
abbrev S256x1 : Shape := ⟨2, ![256, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S50000x256 : Shape := ⟨2, ![50000, 256]⟩
abbrev S1x256 : Shape := ⟨2, ![1, 256]⟩
abbrev S1024x256 : Shape := ⟨2, ![1024, 256]⟩
abbrev S1024 : Shape := ⟨1, ![1024]⟩
abbrev S1024x1 : Shape := ⟨2, ![1024, 1]⟩
abbrev S1024x512 : Shape := ⟨2, ![1024, 512]⟩
abbrev S1x1 : Shape := ⟨2, ![1, 1]⟩

abbrev nBuf : Space → Nat
  | .hbm => 83
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1024x1280, .f32⟩
  | .hbm, ⟨2, _⟩ => ⟨S64x256, .f32⟩
  | .hbm, ⟨3, _⟩ => ⟨S256, .f32⟩
  | .hbm, ⟨4, _⟩ => ⟨S64x256, .f32⟩
  | .hbm, ⟨5, _⟩ => ⟨S1280x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S2x800000, .i32⟩
  | .hbm, ⟨12, _⟩ => ⟨S50000, .i32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S_, .f32⟩
  | .hbm, ⟨27, _⟩ => ⟨S50000x64, .f32⟩
  | .hbm, ⟨28, _⟩ => ⟨S800000x1, .i32⟩
  | .hbm, ⟨29, _⟩ => ⟨S50000x64, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S50000, .f32⟩
  | .hbm, ⟨34, _⟩ => ⟨S800000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x64, .f32⟩
  | .hbm, ⟨41, _⟩ => ⟨S50000x64, .f32⟩
  | .hbm, ⟨42, _⟩ => ⟨S50000x256, .f32⟩
  | .hbm, ⟨43, _⟩ => ⟨S1x256, .f32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S1024x256, .f32⟩
  | .hbm, ⟨53, _⟩ => ⟨S50000x1, .i32⟩
  | .hbm, ⟨54, _⟩ => ⟨S1024x256, .f32⟩
  | .hbm, ⟨55, _⟩ => ⟨S_, .f32⟩
  | .hbm, ⟨56, _⟩ => ⟨S50000, .f32⟩
  | .hbm, ⟨57, _⟩ => ⟨S_, .f32⟩
  | .hbm, ⟨58, _⟩ => ⟨S1024, .f32⟩
  | .hbm, ⟨59, _⟩ => ⟨S50000x1, .i32⟩
  | .hbm, ⟨60, _⟩ => ⟨S1024, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S1024x1, .f32⟩
  | .hbm, ⟨65, _⟩ => ⟨S1024x256, .f32⟩
  | .hbm, ⟨66, _⟩ => ⟨S1024x256, .f32⟩
  | .hbm, ⟨67, _⟩ => ⟨S1024x256, .f32⟩
  | .hbm, ⟨68, _⟩ => ⟨S1x256, .f32⟩
  | .hbm, ⟨69, _⟩ => ⟨S1024x256, .f32⟩
  | .hbm, ⟨70, _⟩ => ⟨S1024x256, .f32⟩
  | .hbm, ⟨71, _⟩ => ⟨S1024x512, .f32⟩
  | .hbm, ⟨72, _⟩ => ⟨S1024x256, .f32⟩
  | .hbm, ⟨73, _⟩ => ⟨S1x256, .f32⟩
  | .hbm, ⟨74, _⟩ => ⟨S1024x256, .f32⟩
  | .hbm, ⟨75, _⟩ => ⟨S1024x256, .f32⟩
  | .hbm, ⟨76, _⟩ => ⟨S_, .f32⟩
  | .hbm, ⟨77, _⟩ => ⟨S1024x256, .f32⟩
  | .hbm, ⟨78, _⟩ => ⟨S1024x256, .f32⟩
  | .hbm, ⟨79, _⟩ => ⟨S1024x1, .f32⟩
  | .hbm, ⟨80, _⟩ => ⟨S1x1, .f32⟩
  | .hbm, ⟨81, _⟩ => ⟨S1024x1, .f32⟩
  | .hbm, ⟨82, _⟩ => ⟨S1024x1, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bcast_S1x256_S1024x256_0_1 : S1x256.BroadcastsInDim S1024x256 (![0, 1] : Fin 2 → Fin S1024x256.rank)
  concatenates_S1024x256_S1024x256_S1024x512_d1 : Shape.Concatenates [S1024x256, S1024x256] S1024x512 1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x256_S50000x256_1_0_0_1_n_n_wf : DotDims.WF S50000x64 S64x256 S50000x256 [1] [0] [0] [1] [] []
  scatter_S1024x256_S50000x1_S50000x256_1_0_0_1_wf : ScatterDims.WF S1024x256 S50000x1 S50000x256 [1] [0] [0] 1
  scatter_S1024_S50000x1_S50000_n_0_0_1_wf : ScatterDims.WF S1024 S50000x1 S50000 [] [0] [0] 1
  dot_S1024x1280_S1280x256_S1024x256_1_0_0_1_n_n_wf : DotDims.WF S1024x1280 S1280x256 S1024x256 [1] [0] [0] [1] [] []
  dot_S1024x512_S512x256_S1024x256_1_0_0_1_n_n_wf : DotDims.WF S1024x512 S512x256 S1024x256 [1] [0] [0] [1] [] []
  dot_S1024x256_S256x1_S1024x1_1_0_0_1_n_n_wf : DotDims.WF S1024x256 S256x1 S1024x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def scatter_S1024x256_S50000x1_S50000x256_1_0_0_1 : ScatterDims S1024x256 S50000x1 S50000x256 where
  updateWindowDims := [1]
  insertedWindowDims := [0]
  scatterDimsToOperandDims := [0]
  indexVectorDim := 1
  wf := scatter_S1024x256_S50000x1_S50000x256_1_0_0_1_wf
def scatter_S1024_S50000x1_S50000_n_0_0_1 : ScatterDims S1024 S50000x1 S50000 where
  updateWindowDims := []
  insertedWindowDims := [0]
  scatterDimsToOperandDims := [0]
  indexVectorDim := 1
  wf := scatter_S1024_S50000x1_S50000_n_0_0_1_wf
def dot_S1024x1280_S1280x256_S1024x256_1_0_0_1_n_n : DotDims S1024x1280 S1280x256 S1024x256 where
  lhsContracting := [1]
  rhsContracting := [0]
  lhsNonContracting := [0]
  rhsNonContracting := [1]
  lhsBatch := []
  rhsBatch := []
  wf := dot_S1024x1280_S1280x256_S1024x256_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

class Facts : Prop extends Facts₀ where

variable [Facts]
-- ==== Proof.KernelRun.lean ====
/-
  The idealized kernel's whole run, keeping every buffer's final contents.

  @main is four segments: the host stretch that forms the neighbour means, the graph kernel's pipeline, the host
  stretch that pools the node rows per graph, and the fusion kernel's pipeline. Every weakly fair execution
  terminates without a fault, and every buffer that outlives the kernels ends at the last boundary's contents `W4`
  (the fold of the four segments over the launch memory). The frame claim keeps only the argument arrays of this
  post; here all of it is kept, so that the result array can be read off afterwards.
-/
import proofs.«105943_j12661563588711_1_alg».proof.Proof.Gen.KernelIdeal.Frame

set_option maxRecDepth 16384

noncomputable section

namespace Cert.KernelIdeal.RunAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, with every
    buffer that outlives the kernels at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run with the result array and the argument arrays named: the result at the last boundary's contents,
    every argument as launched. -/
theorem run_result : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v36 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c)⟩)
    (run_all m ρ)

end Cert.KernelIdeal.RunAll

end
-- ==== Proof.HostSide.lean ====
/-
  What each kernel region finds in its arrays, in terms of the launch memory.

  The first host stretch forms the neighbour means from the node features and the edge list; the second pools the
  node stage per graph. Both are, operation for operation, the reference's own operations, so what the graph kernel
  finds in its second operand IS the reference's neighbour-mean stage of the launch arguments, and what the fusion
  kernel finds in its first operand IS the reference's pooled stage once the node stage is the reference's: the
  two host chains are matched whole and never opened. An argument array is written by no operation and by no
  kernel, so every region finds it as launched.
-/
import proofs.«105943_j12661563588711_1_alg».proof.Proof.Gen.KernelIdeal.Frame
import proofs.«105943_j12661563588711_1_alg».proof.Proof.Gen.ReferenceIdeal.Read
import Idealize.ShloMosaic.Lib.StableHlo.Run

set_option maxRecDepth 16384

noncomputable section

namespace Cert.KernelIdeal.HostSide

open Idealize.ShloMosaic Idealize.ShloMosaic.TcCoe Idealize.ShloMosaic.StableHlo
open Idealize.SL Idealize.SL.Sem
open Cert.KernelIdeal Cert.KernelIdeal.Gen

variable (m : (ℓ : Loc nD τ sig) → Buf (Elt Ideal) ℓ) (ρ : Dev nD → PrngReg)

/-! ## Before the graph kernel -/

set_option maxHeartbeats 8000000 in
/-- The graph kernel's second operand: the reference's neighbour-mean stage of the launch arguments. -/
theorem aggr_entry (c : Dev nD) :
    (V1 m ρ c main_v22 : S50000x64.Idx → Elt Ideal .f32)
      = Cert.ReferenceIdeal.Read.val_main_v22 (F := Ideal) (m ((c : Thread nD τ).loc main_arg0)) (m ((c : Thread nD τ).loc main_arg11)) := by
  show StableHlo.after hostOps0 (W0 m ρ c) (Proc.devRef .tc main_v22) = _
  after_results_simp
  rfl

set_option maxHeartbeats 8000000 in
/-- No operation of the first stretch writes an argument: after it, each argument array is as launched. -/
theorem W1_arg (c : Dev nD) :
    W1 m ρ c (Proc.devRef .tc main_arg0) = m ((c : Thread nD τ).loc main_arg0)
    ∧ W1 m ρ c (Proc.devRef .tc main_arg1) = m ((c : Thread nD τ).loc main_arg1)
    ∧ W1 m ρ c (Proc.devRef .tc main_arg2) = m ((c : Thread nD τ).loc main_arg2)
    ∧ W1 m ρ c (Proc.devRef .tc main_arg3) = m ((c : Thread nD τ).loc main_arg3)
    ∧ W1 m ρ c (Proc.devRef .tc main_arg4) = m ((c : Thread nD τ).loc main_arg4)
    ∧ W1 m ρ c (Proc.devRef .tc main_arg5) = m ((c : Thread nD τ).loc main_arg5)
    ∧ W1 m ρ c (Proc.devRef .tc main_arg6) = m ((c : Thread nD τ).loc main_arg6)
    ∧ W1 m ρ c (Proc.devRef .tc main_arg7) = m ((c : Thread nD τ).loc main_arg7)
    ∧ W1 m ρ c (Proc.devRef .tc main_arg8) = m ((c : Thread nD τ).loc main_arg8)
    ∧ W1 m ρ c (Proc.devRef .tc main_arg9) = m ((c : Thread nD τ).loc main_arg9)
    ∧ W1 m ρ c (Proc.devRef .tc main_arg10) = m ((c : Thread nD τ).loc main_arg10)
    ∧ W1 m ρ c (Proc.devRef .tc main_arg12) = m ((c : Thread nD τ).loc main_arg12) := by
  refine ⟨?_, ?_, ?_, ?_, ?_, ?_, ?_, ?_, ?_, ?_, ?_, ?_⟩ <;>
    (show StableHlo.after hostOps0 (W0 m ρ c) _ = _; after_results_simp)

/-! ## Between the kernels -/

/-- The graph kernel's pipeline writes only its result array: after it, an argument the pooling stretch or the fusion
    kernel reads is still as launched. -/
theorem W2_arg (c : Dev nD) :
    W2 m ρ c (Proc.devRef .tc main_arg1) = m ((c : Thread nD τ).loc main_arg1)
    ∧ W2 m ρ c (Proc.devRef .tc main_arg5) = m ((c : Thread nD τ).loc main_arg5)
    ∧ W2 m ρ c (Proc.devRef .tc main_arg6) = m ((c : Thread nD τ).loc main_arg6)
    ∧ W2 m ρ c (Proc.devRef .tc main_arg7) = m ((c : Thread nD τ).loc main_arg7)
    ∧ W2 m ρ c (Proc.devRef .tc main_arg8) = m ((c : Thread nD τ).loc main_arg8)
    ∧ W2 m ρ c (Proc.devRef .tc main_arg9) = m ((c : Thread nD τ).loc main_arg9)
    ∧ W2 m ρ c (Proc.devRef .tc main_arg10) = m ((c : Thread nD τ).loc main_arg10)
    ∧ W2 m ρ c (Proc.devRef .tc main_arg12) = m ((c : Thread nD τ).loc main_arg12) := by
  obtain ⟨-, h1, -, -, -, h5, h6, h7, h8, h9, h10, h12⟩ := W1_arg m ρ c
  exact ⟨(W2_of_ne m ρ c main_arg1 (by decide)).trans h1, (W2_of_ne m ρ c main_arg5 (by decide)).trans h5,
    (W2_of_ne m ρ c main_arg6 (by decide)).trans h6, (W2_of_ne m ρ c main_arg7 (by decide)).trans h7,
    (W2_of_ne m ρ c main_arg8 (by decide)).trans h8, (W2_of_ne m ρ c main_arg9 (by decide)).trans h9,
    (W2_of_ne m ρ c main_arg10 (by decide)).trans h10, (W2_of_ne m ρ c main_arg12 (by decide)).trans h12⟩

set_option maxHeartbeats 8000000 in
/-- No operation of the pooling stretch writes an argument the fusion kernel reads. -/
theorem W3_arg (c : Dev nD) :
    W3 m ρ c (Proc.devRef .tc main_arg1) = W2 m ρ c (Proc.devRef .tc main_arg1)
    ∧ W3 m ρ c (Proc.devRef .tc main_arg5) = W2 m ρ c (Proc.devRef .tc main_arg5)
    ∧ W3 m ρ c (Proc.devRef .tc main_arg6) = W2 m ρ c (Proc.devRef .tc main_arg6)
    ∧ W3 m ρ c (Proc.devRef .tc main_arg7) = W2 m ρ c (Proc.devRef .tc main_arg7)
    ∧ W3 m ρ c (Proc.devRef .tc main_arg8) = W2 m ρ c (Proc.devRef .tc main_arg8)
    ∧ W3 m ρ c (Proc.devRef .tc main_arg9) = W2 m ρ c (Proc.devRef .tc main_arg9)
    ∧ W3 m ρ c (Proc.devRef .tc main_arg10) = W2 m ρ c (Proc.devRef .tc main_arg10) := by
  refine ⟨?_, ?_, ?_, ?_, ?_, ?_, ?_⟩ <;>
    (show StableHlo.after hostOps1 (W2 m ρ c) _ = _; after_results_simp)

set_option maxHeartbeats 8000000 in
/-- The fusion kernel's first operand: the reference's pooled stage, once the node stage the pooling stretch finds
    is the reference's node stage and the graph ids are the launch argument. -/
theorem pooled_entry (c : Dev nD)
    (x0 : (⟨Cert.ReferenceIdeal.S50000x64, .f32⟩ : BufTy).Contents (Elt Ideal))
    (x2 : (⟨Cert.ReferenceIdeal.S64x256, .f32⟩ : BufTy).Contents (Elt Ideal))
    (x3 : (⟨Cert.ReferenceIdeal.S256, .f32⟩ : BufTy).Contents (Elt Ideal))
    (x4 : (⟨Cert.ReferenceIdeal.S64x256, .f32⟩ : BufTy).Contents (Elt Ideal))
    (x11 : (⟨Cert.ReferenceIdeal.S2x800000, .i32⟩ : BufTy).Contents (Elt Ideal))
    (x12 : (⟨Cert.ReferenceIdeal.S50000, .i32⟩ : BufTy).Contents (Elt Ideal))
    (hd : (W2 m ρ c (Proc.devRef .tc main_v23) : S50000x256.Idx → Elt Ideal .f32)
      = Cert.ReferenceIdeal.Read.val_main_v29 (F := Ideal) x0 x2 x3 x4 x11)
    (hb : (W2 m ρ c (Proc.devRef .tc main_arg12) : S50000.Idx → BitVec 32) = x12) :
    (V3 m ρ c main_v35 : S1024x256.Idx → Elt Ideal .f32)
      = Cert.ReferenceIdeal.Read.val_main_v41 (F := Ideal) x0 x2 x3 x4 x11 x12 := by
  show StableHlo.after hostOps1 (W2 m ρ c) (Proc.devRef .tc main_v35) = _
  after_results_simp
  rw [hd, hb]
  rfl

end Cert.KernelIdeal.HostSide

end
-- ==== Proof.RowMaps.lean ====
/-
  The layers of the model as ROW-WISE maps, for any number of rows `n`.

  Every layer sends row `r` of its row-indexed inputs (and the shared weights) to row `r` of its output:
  * the graph layer:   relu((aggr · Wl + x · Wr) + bl), 64 → 256 features;
  * the protein layer: prot · Wp + bp, 1280 → 256 features;
  * the join:          the pooled row followed by the protein row, 256 + 256 → 512 features;
  * the interaction:   relu(joined · Wi + bi), 512 → 256 features;
  * the head:          interaction · Wo + bo, 256 → 1.
  A block of rows of the output is therefore the same map applied to that block of rows of the inputs
  (`sageAt_congr`, `headChainAt_congr`): that is all a row-tiled computation uses.
-/
import Idealize.ShloMosaic.Lib.ValueIdx
import Idealize.ShloMosaic.PureOps.Ideal

noncomputable section

namespace Cert.RowMaps

open Idealize.ShloMosaic Idealize.ShloMosaic.ValueIdx

/-- The value of the float word `0` on the extended reals (kept as the word: both programs spell it so). -/
abbrev zero : EReal := Ideal.ofBits .f32 0x00000000#32

variable {n n' : ℕ}

/-- The graph layer at row `r`, feature `q`: relu((Σₑ aggr[r,e]·Wl[e,q] + Σₑ x[r,e]·Wr[e,q]) + bl[q]). -/
def sageAt (x aggr : (⟨2, ![n, 64]⟩ : Shape).Idx → EReal) (wl : (⟨2, ![64, 256]⟩ : Shape).Idx → EReal)
    (bl : (⟨1, ![256]⟩ : Shape).Idx → EReal) (wr : (⟨2, ![64, 256]⟩ : Shape).Idx → EReal)
    (r : Fin n) (q : Fin 256) : EReal :=
  max (((∑ e : Fin 64, aggr (ix2 r e) * wl (ix2 e q)) + (∑ e : Fin 64, x (ix2 r e) * wr (ix2 e q))) + bl (ix1 q)) zero

/-- The graph layer's row `r` depends only on row `r` of `x` and of `aggr` and on the entries of the weights:
    inputs that agree there give the same value (the rows may sit at different positions `r`, `r'` of arrays with
    different numbers of rows). -/
theorem sageAt_congr (x aggr : (⟨2, ![n, 64]⟩ : Shape).Idx → EReal) (x' aggr' : (⟨2, ![n', 64]⟩ : Shape).Idx → EReal)
    (wl wl' : (⟨2, ![64, 256]⟩ : Shape).Idx → EReal) (bl bl' : (⟨1, ![256]⟩ : Shape).Idx → EReal)
    (wr wr' : (⟨2, ![64, 256]⟩ : Shape).Idx → EReal) (r : Fin n) (r' : Fin n')
    (hx : ∀ e : Fin 64, x (ix2 r e) = x' (ix2 r' e)) (ha : ∀ e : Fin 64, aggr (ix2 r e) = aggr' (ix2 r' e))
    (hwl : ∀ (e : Fin 64) (q : Fin 256), wl (ix2 e q) = wl' (ix2 e q)) (hbl : ∀ q : Fin 256, bl (ix1 q) = bl' (ix1 q))
    (hwr : ∀ (e : Fin 64) (q : Fin 256), wr (ix2 e q) = wr' (ix2 e q))
    (q : Fin 256) : sageAt x aggr wl bl wr r q = sageAt x' aggr' wl' bl' wr' r' q := by
  unfold sageAt
  simp only [hx, ha, hwl, hbl, hwr]

/-- The protein layer at row `r`, feature `q`: Σₗ prot[r,l]·Wp[l,q] + bp[q]. -/
def proteinAt (prot : (⟨2, ![n, 1280]⟩ : Shape).Idx → EReal) (wp : (⟨2, ![1280, 256]⟩ : Shape).Idx → EReal)
    (bp : (⟨1, ![256]⟩ : Shape).Idx → EReal) (r : Fin n) (q : Fin 256) : EReal :=
  (∑ l : Fin 1280, prot (ix2 r l) * wp (ix2 l q)) + bp (ix1 q)

/-- Two 256-feature rows side by side: feature `j < 256` from the left, feature `256 + k` from the right at `k`. -/
def joinAt (left right : Fin n → Fin 256 → EReal) (r : Fin n) (j : Fin 512) : EReal :=
  if h : j.val < 256 then left r ⟨j.val, h⟩ else right r ⟨j.val - 256, by have := j.isLt; omega⟩

/-- The interaction layer at row `r`, feature `k`: relu(Σⱼ joined[r,j]·Wi[j,k] + bi[k]). -/
def interAt (joined : Fin n → Fin 512 → EReal) (wi : (⟨2, ![512, 256]⟩ : Shape).Idx → EReal)
    (bi : (⟨1, ![256]⟩ : Shape).Idx → EReal) (r : Fin n) (k : Fin 256) : EReal :=
  max ((∑ j : Fin 512, joined r j * wi (ix2 j k)) + bi (ix1 k)) zero

/-- The head at row `r`: Σₖ inter[r,k]·Wo[k,0] + bo[0]. -/
def headAt (inter : Fin n → Fin 256 → EReal) (wo : (⟨2, ![256, 1]⟩ : Shape).Idx → EReal)
    (bo : (⟨1, ![1]⟩ : Shape).Idx → EReal) (r : Fin n) : EReal :=
  (∑ k : Fin 256, inter r k * wo (ix2 k (0 : Fin 1))) + bo (ix1 (0 : Fin 1))

/-- Protein layer, join with the pooled rows, interaction layer and head, composed: the model's output at row `r`. -/
def headChainAt (pooled : (⟨2, ![n, 256]⟩ : Shape).Idx → EReal) (prot : (⟨2, ![n, 1280]⟩ : Shape).Idx → EReal)
    (wp : (⟨2, ![1280, 256]⟩ : Shape).Idx → EReal) (bp : (⟨1, ![256]⟩ : Shape).Idx → EReal)
    (wi : (⟨2, ![512, 256]⟩ : Shape).Idx → EReal) (bi : (⟨1, ![256]⟩ : Shape).Idx → EReal)
    (wo : (⟨2, ![256, 1]⟩ : Shape).Idx → EReal) (bo : (⟨1, ![1]⟩ : Shape).Idx → EReal) (r : Fin n) : EReal :=
  headAt (interAt (joinAt (fun r q => pooled (ix2 r q)) (proteinAt prot wp bp)) wi bi) wo bo r

/-- The composed output's row `r` depends only on row `r` of the pooled and of the protein inputs and on the entries
    of the weights: inputs that agree there give the same value. -/
theorem headChainAt_congr (pooled : (⟨2, ![n, 256]⟩ : Shape).Idx → EReal) (prot : (⟨2, ![n, 1280]⟩ : Shape).Idx → EReal)
    (pooled' : (⟨2, ![n', 256]⟩ : Shape).Idx → EReal) (prot' : (⟨2, ![n', 1280]⟩ : Shape).Idx → EReal)
    (wp wp' : (⟨2, ![1280, 256]⟩ : Shape).Idx → EReal) (bp bp' : (⟨1, ![256]⟩ : Shape).Idx → EReal)
    (wi wi' : (⟨2, ![512, 256]⟩ : Shape).Idx → EReal) (bi bi' : (⟨1, ![256]⟩ : Shape).Idx → EReal)
    (wo wo' : (⟨2, ![256, 1]⟩ : Shape).Idx → EReal) (bo bo' : (⟨1, ![1]⟩ : Shape).Idx → EReal) (r : Fin n) (r' : Fin n')
    (hp : ∀ q : Fin 256, pooled (ix2 r q) = pooled' (ix2 r' q))
    (hq : ∀ l : Fin 1280, prot (ix2 r l) = prot' (ix2 r' l))
    (hwp : ∀ (l : Fin 1280) (q : Fin 256), wp (ix2 l q) = wp' (ix2 l q)) (hbp : ∀ q : Fin 256, bp (ix1 q) = bp' (ix1 q))
    (hwi : ∀ (j : Fin 512) (k : Fin 256), wi (ix2 j k) = wi' (ix2 j k)) (hbi : ∀ k : Fin 256, bi (ix1 k) = bi' (ix1 k))
    (hwo : ∀ k : Fin 256, wo (ix2 k (0 : Fin 1)) = wo' (ix2 k (0 : Fin 1)))
    (hbo : bo (ix1 (0 : Fin 1)) = bo' (ix1 (0 : Fin 1))) :
    headChainAt pooled prot wp bp wi bi wo bo r = headChainAt pooled' prot' wp' bp' wi' bi' wo' bo' r' := by
  unfold headChainAt headAt interAt joinAt proteinAt
  simp only [hp, hq, hwp, hbp, hwi, hbi, hwo, hbo]

end Cert.RowMaps

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibStack.lean ====
/-
  Two matrices joined into one, read at an entry given by its coordinates, for any extents.

  Side by side (`[a, b₁]` and `[a, b₂]` joined along the last axis into `[a, t]`): a column below `b₁` reads the left
  matrix at that column, a column `b₁ + k` reads the right matrix at column `k` (`beside_left`, `beside_right`).
  One above the other (`[a₁, b]` and `[a₂, b]` joined along the first axis into `[t, b]`): a row below `a₁` reads the
  upper matrix, a row `a₁ + k` the lower one at row `k` (`above_top`, `above_bottom`).
  The joined extent `t` and the coordinate in it are separate variables tied by an equation between naturals, so the
  lemmas apply to a literal extent such as 128 with pieces of 64 without any arithmetic in a type.
-/
import Idealize.ShloMosaic.Lib.Pipeline.Value
import Idealize.ShloMosaic.Lib.ValueIdx

noncomputable section

namespace Cert.LibStack

open Idealize.ShloMosaic Idealize.ShloMosaic.ValueIdx

variable {α : Type}

/-- Side by side, a column among the first `b₁`: the left matrix at the same row and column. -/
theorem beside_left {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₁) (k' : Fin t) (hk : k'.val = k.val) :
    concatenate ⟨2, ![a, t]⟩ 1 [⟨⟨2, ![a, b₁]⟩, x⟩, ⟨⟨2, ![a, b₂]⟩, y⟩] h (ix2 p k') = x (ix2 p k) :=
  concatenate_pair_apply_left 1 x y h (ix2 p k') rfl (ix2 p k) fun b => by
    match b with
    | ⟨0, _⟩ => rfl
    | ⟨1, _⟩ => exact hk.symm

/-- Side by side, column `b₁ + k`: the right matrix at the same row and column `k`. -/
theorem beside_right {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₂) (k' : Fin t) (hk : k'.val = k.val + b₁) :
    concatenate ⟨2, ![a, t]⟩ 1 [⟨⟨2, ![a, b₁]⟩, x⟩, ⟨⟨2, ![a, b₂]⟩, y⟩] h (ix2 p k') = y (ix2 p k) :=
  concatenate_pair_apply_right 1 x y h (ix2 p k') rfl rfl (ix2 p k)
    (fun b hb => by
      match b with
      | ⟨0, _⟩ => rfl
      | ⟨1, _⟩ => exact absurd rfl hb)
    (by show k.val + b₁ = k'.val; exact hk.symm)

/-- One above the other, a row among the first `a₁`: the upper matrix at the same row and column. -/
theorem above_top {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₁) (k' : Fin t) (q : Fin b) (hk : k'.val = k.val) :
    concatenate ⟨2, ![t, b]⟩ 0 [⟨⟨2, ![a₁, b]⟩, x⟩, ⟨⟨2, ![a₂, b]⟩, y⟩] h (ix2 k' q) = x (ix2 k q) :=
  concatenate_pair_apply_left 0 x y h (ix2 k' q) rfl (ix2 k q) fun b => by
    match b with
    | ⟨0, _⟩ => exact hk.symm
    | ⟨1, _⟩ => rfl

/-- One above the other, row `a₁ + k`: the lower matrix at row `k` and the same column. -/
theorem above_bottom {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₂) (k' : Fin t) (q : Fin b) (hk : k'.val = k.val + a₁) :
    concatenate ⟨2, ![t, b]⟩ 0 [⟨⟨2, ![a₁, b]⟩, x⟩, ⟨⟨2, ![a₂, b]⟩, y⟩] h (ix2 k' q) = y (ix2 k q) :=
  concatenate_pair_apply_right 0 x y h (ix2 k' q) rfl rfl (ix2 k q)
    (fun b hb => by
      match b with
      | ⟨0, _⟩ => exact absurd rfl hb
      | ⟨1, _⟩ => rfl)
    (by show k.val + a₁ = k'.val; exact hk.symm)

end Cert.LibStack

end
-- ==== Proof.KernelBodies.lean ====
/-
  What each kernel body stores, read at an entry of its block, on the extended reals.

  The graph kernel stores relu((aggr_blk · Wl + x_blk · Wr) + bl) and the fusion kernel stores
  relu([pooled_blk | prot_blk · Wp + bp] · Wi + bi) · Wo + bo, each over one block of rows and the whole weight arrays.
  A change of float format is the identity on the extended reals and a product into a zero accumulator is the plain
  sum of products, so each stored value is the row-wise layer map of `RowMaps` applied to the loaded blocks.
-/
import proofs.«105943_j12661563588711_1_alg».proof.Proof.Gen.KernelIdeal.Skeleton
import proofs.«105943_j12661563588711_1_alg».proof.Proof.RowMaps
import proofs.«105943_j12661563588711_1_alg».proof.Proof.LibRowMax
import proofs.«105943_j12661563588711_1_alg».proof.Proof.LibStack
import Idealize.ShloMosaic.Lib.ValueLayout
import Idealize.ShloMosaic.Lib.Pipeline.Value
import Idealize.ShloMosaic.PureOps.Ideal.Laws

noncomputable section

namespace Cert.KernelIdeal.Bodies

open Idealize.ShloMosaic Idealize.ShloMosaic.ValueIdx Cert.KernelIdeal Cert.KernelIdeal.Gen Cert.RowMaps

/-- The graph kernel's stored value at row `p`, feature `q` of its block: the graph layer of the loaded blocks
    (`x0` the node features, `x1` the neighbour means) — the bf16 casts are the identity on the extended reals, each
    product into a zero accumulator is the plain sum, the bias row is broadcast down the rows. -/
theorem graph_block (x0 x1 : FVec Ideal S2000x64 .f32) (wl wr : FVec Ideal S64x256 .f32) (bl : FVec Ideal S256 .f32)
    (p : Fin 2000) (q : Fin 256) :
    k0_pay1 (F := Ideal) x0 x1 wl wr bl (ix2 p q) = sageAt x0 x1 wl bl wr p q := by
  unfold k0_pay1 sageAt
  simp only [maximumf_apply, addf_apply, broadcast_apply]
  refine congrArg₂ max (congrArg₂ (· + ·) (congrArg₂ (· + ·) ?_ ?_) ?_) rfl
  · refine (Cert.LibRowMax.matmul_plain_apply (a := 2000) (k := 64) (b := 256)
      dot_S2000x64_S64x256_S2000x256_1_0_0_1_n_n.wf none _ _ p q).trans ?_
    rw [shapeCast_self]
    rfl
  · exact Cert.LibRowMax.matmul_plain_apply (a := 2000) (k := 64) (b := 256)
      dot_S2000x64_S64x256_S2000x256_1_0_0_1_n_n.wf none _ _ p q
  · exact (broadcastTo_1b_ab_apply _ broadcasts_S1x256_S2000x256 p q).trans
      (shapeCast_a_1a_apply bl shapeCasts_S256_S1x256 (0 : Fin 1) q)

/-! ## The fusion kernel, layer by layer -/

/-- The protein product plus its bias row, at row `p`, feature `q` of the block. -/
theorem protein_block (v2 : FVec Ideal S256x1280 .f32) (v4 : FVec Ideal S1280x256 .f32) (v6 : FVec Ideal S256 .f32)
    (p : Fin 256) (q : Fin 256) :
    addf (matmul dot_S256x1280_S1280x256_S256x256_1_0_0_1_n_n none (truncf .bf16 v2 bitsLt_bf16_f32)
        (truncf .bf16 v4 bitsLt_bf16_f32) (constant (F := Ideal) S256x256 .f32 0x00000000#32))
      (broadcastTo S256x256 (shapeCast S1x256 v6 shapeCasts_S256_S1x256) broadcasts_S1x256_S256x256) (ix2 p q)
      = proteinAt v2 v4 v6 p q := by
  unfold proteinAt
  simp only [addf_apply]
  refine congrArg₂ (· + ·) ?_ ?_
  · exact Cert.LibRowMax.matmul_plain_apply (a := 256) (k := 1280) (b := 256)
      dot_S256x1280_S1280x256_S256x256_1_0_0_1_n_n.wf none _ _ p q
  · exact (broadcastTo_1b_ab_apply _ broadcasts_S1x256_S256x256 p q).trans
      (shapeCast_a_1a_apply v6 shapeCasts_S256_S1x256 (0 : Fin 1) q)

/-- The pooled block (cast to its own shape) joined side by side with a second 256-feature block, at row `p`,
    feature `j`: the left block below feature 256, the right block at `j - 256` from there on. -/
theorem joined_block (v0 y : FVec Ideal S256x256 .f32) (p : Fin 256) (j : Fin 512) :
    concatenate S256x512 1 [⟨S256x256, shapeCast S256x256 v0 shapeCasts_S256x256_S256x256⟩, ⟨S256x256, y⟩]
        concatenates_S256x256_S256x256_S256x512_d1 (ix2 p j)
      = joinAt (fun r q => v0 (ix2 r q)) (fun r q => y (ix2 r q)) p j := by
  unfold joinAt
  rw [shapeCast_self]
  split
  · rename_i h
    exact Cert.LibStack.beside_left (a := 256) (b₁ := 256) (b₂ := 256) (t := 512) v0 y
      concatenates_S256x256_S256x256_S256x512_d1 p ⟨j.val, h⟩ j rfl
  · rename_i h
    exact Cert.LibStack.beside_right (a := 256) (b₁ := 256) (b₂ := 256) (t := 512) v0 y
      concatenates_S256x256_S256x256_S256x512_d1 p ⟨j.val - 256, by have := j.isLt; omega⟩ j
      (by show j.val = j.val - 256 + 256; omega)

/-- The interaction layer of a joined block, at row `p`, feature `k`. -/
theorem inter_block (c : FVec Ideal S256x512 .f32) (v13 : FVec Ideal S512x256 .f32) (v15 : FVec Ideal S256 .f32)
    (p : Fin 256) (k : Fin 256) :
    maximumf (addf (matmul dot_S256x512_S512x256_S256x256_1_0_0_1_n_n none (truncf .bf16 c bitsLt_bf16_f32)
          (truncf .bf16 v13 bitsLt_bf16_f32) (constant (F := Ideal) S256x256 .f32 0x00000000#32))
        (broadcastTo S256x256 (shapeCast S1x256 v15 shapeCasts_S256_S1x256) broadcasts_S1x256_S256x256))
      (broadcast S256x256 (Scalar.ofBits (F := Ideal) .f32 0x00000000#32)) (ix2 p k)
      = interAt (fun r j => c (ix2 r j)) v13 v15 p k := by
  unfold interAt
  simp only [maximumf_apply, addf_apply, broadcast_apply]
  refine congrArg₂ max (congrArg₂ (· + ·) ?_ ?_) rfl
  · exact Cert.LibRowMax.matmul_plain_apply (a := 256) (k := 512) (b := 256)
      dot_S256x512_S512x256_S256x256_1_0_0_1_n_n.wf none _ _ p k
  · exact (broadcastTo_1b_ab_apply _ broadcasts_S1x256_S256x256 p k).trans
      (shapeCast_a_1a_apply v15 shapeCasts_S256_S1x256 (0 : Fin 1) k)

/-- The head of an interaction block, at row `p` (the output has one column). -/
theorem head_block (y : FVec Ideal S256x256 .f32) (v22 : FVec Ideal S256x1 .f32) (v24 : FVec Ideal S1 .f32)
    (p : Fin 256) (u : Fin 1) :
    addf (matmul dot_S256x256_S256x1_S256x1_1_0_0_1_n_n none (truncf .bf16 y bitsLt_bf16_f32)
        (truncf .bf16 v22 bitsLt_bf16_f32) (constant (F := Ideal) S256x1 .f32 0x00000000#32))
      (broadcastTo S256x1 (shapeCast S1x1 v24 shapeCasts_S1_S1x1) broadcasts_S1x1_S256x1) (ix2 p u)
      = headAt (fun r k => y (ix2 r k)) v22 v24 p := by
  obtain rfl : u = 0 := Subsingleton.elim _ _
  unfold headAt
  simp only [addf_apply]
  refine congrArg₂ (· + ·) ?_ ?_
  · exact Cert.LibRowMax.matmul_plain_apply (a := 256) (k := 256) (b := 1)
      dot_S256x256_S256x1_S256x1_1_0_0_1_n_n.wf none _ _ p (0 : Fin 1)
  · exact (broadcastTo_1b_ab_apply _ broadcasts_S1x1_S256x1 p (0 : Fin 1)).trans
      (shapeCast_a_1a_apply v24 shapeCasts_S1_S1x1 (0 : Fin 1) (0 : Fin 1))

/-- The fusion kernel's stored value at row `p` of its block: the composed layers of the loaded blocks (`v0` the
    pooled rows, `v2` the protein rows) and the whole weight arrays. -/
theorem fuse_block (v0 : FVec Ideal S256x256 .f32) (v2 : FVec Ideal S256x1280 .f32) (v4 : FVec Ideal S1280x256 .f32)
    (v6 : FVec Ideal S256 .f32) (v13 : FVec Ideal S512x256 .f32) (v15 : FVec Ideal S256 .f32)
    (v22 : FVec Ideal S256x1 .f32) (v24 : FVec Ideal S1 .f32) (p : Fin 256) (u : Fin 1) :
    k1_pay1 (F := Ideal) v0 v2 v4 v6 v13 v15 v22 v24 (ix2 p u) = headChainAt v0 v2 v4 v6 v13 v15 v22 v24 p := by
  unfold k1_pay1 headChainAt
  refine (head_block _ v22 v24 p u).trans ?_
  refine congrArg (fun f => headAt f v22 v24 p) (funext fun r => funext fun k => ?_)
  refine (inter_block _ v13 v15 r k).trans ?_
  refine congrArg (fun f => interAt f v13 v15 r k) (funext fun r' => funext fun j => ?_)
  refine (joined_block v0 _ r' j).trans ?_
  refine congrArg (fun g => joinAt (fun r q => v0 (ix2 r q)) g r' j) (funext fun r'' => funext fun q => ?_)
  exact protein_block v2 v4 v6 r'' q

end Cert.KernelIdeal.Bodies

end
-- ==== Proof.GraphRegion.lean ====
/-
  The node stage after the graph kernel's pipeline, as one array.

  The pipeline runs the graph kernel at 25 points; point `t` loads rows 2000·t … 2000·t + 1999 of the node features and
  of the neighbour means and the whole weight arrays, and writes back those rows of the node stage. Every row of the
  graph layer reads only the same row of the row-indexed inputs, so what point `t` writes back is block `t` of ONE
  array — the graph layer of the arrays the region finds — and the 25 blocks cover the 50000 rows.
-/
import proofs.«105943_j12661563588711_1_alg».proof.Proof.Gen.KernelIdeal.Frame
import proofs.«105943_j12661563588711_1_alg».proof.Proof.KernelBodies
import Idealize.ShloMosaic.Lib.Pipeline.Value

set_option maxRecDepth 16384

noncomputable section

namespace Cert.KernelIdeal.GraphRegion

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.RowMaps

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The node stage as one array: the graph layer of the arrays the region finds. -/
def G (c : Dev nD) : S50000x256.Idx → Elt Ideal .f32 := fun i =>
  sageAt (n := 50000) (V c main_arg0) (V c main_v22) (V c main_arg2) (V c main_arg3) (V c main_arg4) (i 0) (i 1)

/-! ## The printed index maps, decided once over the grid -/

/-- Point `t` reads row block `t` of the node features and of the neighbour means, the whole weight arrays, and
    writes row block `t` of the node stage. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The global row of local row `p` of block `t`. -/
def row (t : Fin cfg0.N) (p : Fin 2000) : Fin 50000 :=
  ⟨t.val * 2000 + p.val, by have ht : t.val < grid0.N := t.isLt; have hN : grid0.N = 25 := N_0; have := p.isLt; omega⟩

/-! ## The input blocks, read at an entry -/

theorem x_blk (c : Dev nD) (t : Fin cfg0.N) (p : Fin 2000) (e : Fin 64) :
    iblk0 V c 0 t (ix2 p e) = V c main_arg0 (ix2 (row t p) e) := by
  obtain ⟨e0, e1, -⟩ := idx_facts t
  show V c main_arg0 (((cfg0.win 0).blk t).view.emb (ix2 p e)) = _
  refine congrArg (V c main_arg0) (funext fun a => Fin.ext ?_)
  match a with
  | ⟨0, _⟩ => show win0_0.index t (0 : Fin 2) * 2000 + 1 * p.val = t.val * 2000 + p.val; omega
  | ⟨1, _⟩ => show win0_0.index t (1 : Fin 2) * 64 + 1 * e.val = e.val; omega

theorem aggr_blk (c : Dev nD) (t : Fin cfg0.N) (p : Fin 2000) (e : Fin 64) :
    iblk0 V c 1 t (ix2 p e) = V c main_v22 (ix2 (row t p) e) := by
  obtain ⟨-, -, e0, e1, -⟩ := idx_facts t
  show V c main_v22 (((cfg0.win 1).blk t).view.emb (ix2 p e)) = _
  refine congrArg (V c main_v22) (funext fun a => Fin.ext ?_)
  match a with
  | ⟨0, _⟩ => show win0_1.index t (0 : Fin 2) * 2000 + 1 * p.val = t.val * 2000 + p.val; omega
  | ⟨1, _⟩ => show win0_1.index t (1 : Fin 2) * 64 + 1 * e.val = e.val; omega

theorem wl_blk (c : Dev nD) (t : Fin cfg0.N) (e : Fin 64) (q : Fin 256) :
    iblk0 V c 2 t (ix2 e q) = V c main_arg2 (ix2 e q) := by
  obtain ⟨-, -, -, -, e0, e1, -⟩ := idx_facts t
  show V c main_arg2 (((cfg0.win 2).blk t).view.emb (ix2 e q)) = _
  refine congrArg (V c main_arg2) (funext fun a => Fin.ext ?_)
  match a with
  | ⟨0, _⟩ => show win0_2.index t (0 : Fin 2) * 64 + 1 * e.val = e.val; omega
  | ⟨1, _⟩ => show win0_2.index t (1 : Fin 2) * 256 + 1 * q.val = q.val; omega

theorem bl_blk (c : Dev nD) (t : Fin cfg0.N) (q : Fin 256) :
    iblk0 V c 3 t (ix1 q) = V c main_arg3 (ix1 q) := by
  obtain ⟨-, -, -, -, -, -, e0, -⟩ := idx_facts t
  show V c main_arg3 (((cfg0.win 3).blk t).view.emb (ix1 q)) = _
  refine congrArg (V c main_arg3) (funext fun a => Fin.ext ?_)
  match a with
  | ⟨0, _⟩ => show win0_3.index t (0 : Fin 1) * 256 + 1 * q.val = q.val; omega

theorem wr_blk (c : Dev nD) (t : Fin cfg0.N) (e : Fin 64) (q : Fin 256) :
    iblk0 V c 4 t (ix2 e q) = V c main_arg4 (ix2 e q) := by
  obtain ⟨-, -, -, -, -, -, -, e0, e1, -⟩ := idx_facts t
  show V c main_arg4 (((cfg0.win 4).blk t).view.emb (ix2 e q)) = _
  refine congrArg (V c main_arg4) (funext fun a => Fin.ext ?_)
  match a with
  | ⟨0, _⟩ => show win0_4.index t (0 : Fin 2) * 64 + 1 * e.val = e.val; omega
  | ⟨1, _⟩ => show win0_4.index t (1 : Fin 2) * 256 + 1 * q.val = q.val; omega

/-- Where entry `(p, q)` of output block `t` sits in the node stage. -/
theorem out_emb (t : Fin cfg0.N) (p : Fin 2000) (q : Fin 256) :
    ((cfg0.win 5).blk t).view.emb (ix2 p q) = ix2 (row t p) q := by
  obtain ⟨-, -, -, -, -, -, -, -, -, e0, e1⟩ := idx_facts t
  funext a
  apply Fin.ext
  match a with
  | ⟨0, _⟩ => show win0_5.index t (0 : Fin 2) * 2000 + 1 * p.val = t.val * 2000 + p.val; omega
  | ⟨1, _⟩ => show win0_5.index t (1 : Fin 2) * 256 + 1 * q.val = q.val; omega

/-! ## What a point writes back, and the whole array -/

/-- The stored value at entry `(p, q)` of block `t` is the node stage at that entry's place in the array: the
    graph layer's row `t·2000 + p` only reads that row of the row-indexed inputs. -/
theorem flushed_at (c : Dev nD) (t : Fin cfg0.N) (p : Fin 2000) (q : Fin 256) :
    k0_pay1 (F := Ideal) (iblk0 V c 0 t) (iblk0 V c 1 t) (iblk0 V c 2 t) (iblk0 V c 4 t) (iblk0 V c 3 t) (ix2 p q)
      = G V c (((cfg0.win 5).blk t).view.emb (ix2 p q)) := by
  refine (Cert.KernelIdeal.Bodies.graph_block _ _ _ _ _ p q).trans ?_
  rw [out_emb]
  exact sageAt_congr _ _ _ _ _ _ _ _ _ _ p (row t p) (x_blk V c t p) (aggr_blk V c t p)
    (wl_blk V c t) (bl_blk V c t) (wr_blk V c t) q

/-- WHAT POINT `t` WRITES BACK is block `t` of the node stage `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x64) hz, View.ld_unit_zero (S := S64x256) hz, View.ld_unit_zero (S := S256) hz1]
  funext j
  show k0_pay1 (F := Ideal) (iblk0 V c 0 t) (iblk0 V c 1 t) (iblk0 V c 2 t) (iblk0 V c 4 t) (iblk0 V c 3 t) j
      = G V c (((cfg0.win 5).blk t).view.emb j)
  obtain ⟨p, q, rfl⟩ : ∃ (p : Fin 2000) (q : Fin 256), j = ix2 p q := ⟨j 0, j 1, eq_ix2 j⟩
  exact flushed_at V c t p q

/-- An index of the array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v23).slice (win0_5.rect t)).set ↔ _
  rw [View.set_slice_whole, Rect.mem_set_unit]
  exact Iff.rfl

/-- Every entry of the node stage is in some point's block: row `r` is in block `r / 2000`. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : grid0.N = 25 := N_0
  let t : Fin cfg0.N := ⟨(i 0).val / 2000, by show (i 0).val / 2000 < grid0.N; omega⟩
  obtain ⟨-, -, -, -, -, -, -, -, -, e0, e1⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE NODE STAGE after the graph kernel's pipeline: the graph layer of the arrays the region finds. -/
theorem final (c : Dev nD) : (dat0 V c).arrAt 5 cfg0.N = G V c :=
  (dat0 V c).arrAt_eq_of_cover 5 (G V c) (fun t _ => flushed_eq V c t) (cover)

end Cert.KernelIdeal.GraphRegion

end
-- ==== Proof.FusionRegion.lean ====
/-
  The result after the fusion kernel's pipeline, as one array.

  The pipeline runs the fusion kernel at 4 points; point `t` loads rows 256·t … 256·t + 255 of the pooled rows and of the
  protein embedding and the whole weight and bias arrays, and writes back those rows of the result. Every row of the
  composed layers reads only the same row of the two row-indexed inputs, so what point `t` writes back is block `t` of
  ONE array — the composed layers of the arrays the region finds — and the 4 blocks cover the 1024 rows.
-/
import proofs.«105943_j12661563588711_1_alg».proof.Proof.Gen.KernelIdeal.Frame
import proofs.«105943_j12661563588711_1_alg».proof.Proof.KernelBodies
import Idealize.ShloMosaic.Lib.Pipeline.Value

set_option maxRecDepth 16384

noncomputable section

namespace Cert.KernelIdeal.FusionRegion

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.RowMaps

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The result as one array: the composed layers of the arrays the region finds. -/
def G (c : Dev nD) : S1024x1.Idx → Elt Ideal .f32 := fun i =>
  headChainAt (n := 1024) (V c main_v35) (V c main_arg1) (V c main_arg5) (V c main_arg6) (V c main_arg7) (V c main_arg8)
    (V c main_arg9) (V c main_arg10) (i 0)

/-! ## The printed index maps, decided once over the grid -/

/-- Point `t` reads row block `t` of the pooled rows and of the protein embedding, the whole weight and bias arrays,
    and writes row block `t` of the result. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-- The global row of local row `p` of block `t`. -/
def row (t : Fin cfg1.N) (p : Fin 256) : Fin 1024 :=
  ⟨t.val * 256 + p.val, by have ht : t.val < grid1.N := t.isLt; have hN : grid1.N = 4 := N_1; have := p.isLt; omega⟩

/-! ## The input blocks, read at an entry -/

theorem pooled_blk (c : Dev nD) (t : Fin cfg1.N) (p : Fin 256) (q : Fin 256) :
    iblk1 V c 0 t (ix2 p q) = V c main_v35 (ix2 (row t p) q) := by
  obtain ⟨e0, e1, -⟩ := idx_facts t
  show V c main_v35 (((cfg1.win 0).blk t).view.emb (ix2 p q)) = _
  refine congrArg (V c main_v35) (funext fun a => Fin.ext ?_)
  match a with
  | ⟨0, _⟩ => show win1_0.index t (0 : Fin 2) * 256 + 1 * p.val = t.val * 256 + p.val; omega
  | ⟨1, _⟩ => show win1_0.index t (1 : Fin 2) * 256 + 1 * q.val = q.val; omega

theorem prot_blk (c : Dev nD) (t : Fin cfg1.N) (p : Fin 256) (l : Fin 1280) :
    iblk1 V c 1 t (ix2 p l) = V c main_arg1 (ix2 (row t p) l) := by
  obtain ⟨-, -, e0, e1, -⟩ := idx_facts t
  show V c main_arg1 (((cfg1.win 1).blk t).view.emb (ix2 p l)) = _
  refine congrArg (V c main_arg1) (funext fun a => Fin.ext ?_)
  match a with
  | ⟨0, _⟩ => show win1_1.index t (0 : Fin 2) * 256 + 1 * p.val = t.val * 256 + p.val; omega
  | ⟨1, _⟩ => show win1_1.index t (1 : Fin 2) * 1280 + 1 * l.val = l.val; omega

theorem wp_blk (c : Dev nD) (t : Fin cfg1.N) (l : Fin 1280) (q : Fin 256) :
    iblk1 V c 2 t (ix2 l q) = V c main_arg5 (ix2 l q) := by
  obtain ⟨-, -, -, -, e0, e1, -⟩ := idx_facts t
  show V c main_arg5 (((cfg1.win 2).blk t).view.emb (ix2 l q)) = _
  refine congrArg (V c main_arg5) (funext fun a => Fin.ext ?_)
  match a with
  | ⟨0, _⟩ => show win1_2.index t (0 : Fin 2) * 1280 + 1 * l.val = l.val; omega
  | ⟨1, _⟩ => show win1_2.index t (1 : Fin 2) * 256 + 1 * q.val = q.val; omega

theorem bp_blk (c : Dev nD) (t : Fin cfg1.N) (q : Fin 256) :
    iblk1 V c 3 t (ix1 q) = V c main_arg6 (ix1 q) := by
  obtain ⟨-, -, -, -, -, -, e0, -⟩ := idx_facts t
  show V c main_arg6 (((cfg1.win 3).blk t).view.emb (ix1 q)) = _
  refine congrArg (V c main_arg6) (funext fun a => Fin.ext ?_)
  match a with
  | ⟨0, _⟩ => show win1_3.index t (0 : Fin 1) * 256 + 1 * q.val = q.val; omega

theorem wi_blk (c : Dev nD) (t : Fin cfg1.N) (j : Fin 512) (k : Fin 256) :
    iblk1 V c 4 t (ix2 j k) = V c main_arg7 (ix2 j k) := by
  obtain ⟨-, -, -, -, -, -, -, e0, e1, -⟩ := idx_facts t
  show V c main_arg7 (((cfg1.win 4).blk t).view.emb (ix2 j k)) = _
  refine congrArg (V c main_arg7) (funext fun a => Fin.ext ?_)
  match a with
  | ⟨0, _⟩ => show win1_4.index t (0 : Fin 2) * 512 + 1 * j.val = j.val; omega
  | ⟨1, _⟩ => show win1_4.index t (1 : Fin 2) * 256 + 1 * k.val = k.val; omega

theorem bi_blk (c : Dev nD) (t : Fin cfg1.N) (k : Fin 256) :
    iblk1 V c 5 t (ix1 k) = V c main_arg8 (ix1 k) := by
  obtain ⟨-, -, -, -, -, -, -, -, -, e0, -⟩ := idx_facts t
  show V c main_arg8 (((cfg1.win 5).blk t).view.emb (ix1 k)) = _
  refine congrArg (V c main_arg8) (funext fun a => Fin.ext ?_)
  match a with
  | ⟨0, _⟩ => show win1_5.index t (0 : Fin 1) * 256 + 1 * k.val = k.val; omega

theorem wo_blk (c : Dev nD) (t : Fin cfg1.N) (k : Fin 256) :
    iblk1 V c 6 t (ix2 k (0 : Fin 1)) = V c main_arg9 (ix2 k (0 : Fin 1)) := by
  obtain ⟨-, -, -, -, -, -, -, -, -, -, e0, e1, -⟩ := idx_facts t
  show V c main_arg9 (((cfg1.win 6).blk t).view.emb (ix2 k (0 : Fin 1))) = _
  refine congrArg (V c main_arg9) (funext fun a => Fin.ext ?_)
  match a with
  | ⟨0, _⟩ => show win1_6.index t (0 : Fin 2) * 256 + 1 * k.val = k.val; omega
  | ⟨1, _⟩ => show win1_6.index t (1 : Fin 2) * 1 + 1 * 0 = 0; omega

theorem bo_blk (c : Dev nD) (t : Fin cfg1.N) :
    iblk1 V c 7 t (ix1 (0 : Fin 1)) = V c main_arg10 (ix1 (0 : Fin 1)) := by
  obtain ⟨-, -, -, -, -, -, -, -, -, -, -, -, e0, -⟩ := idx_facts t
  show V c main_arg10 (((cfg1.win 7).blk t).view.emb (ix1 (0 : Fin 1))) = _
  refine congrArg (V c main_arg10) (funext fun a => Fin.ext ?_)
  match a with
  | ⟨0, _⟩ => show win1_7.index t (0 : Fin 1) * 1 + 1 * 0 = 0; omega

/-- Where entry `(p, u)` of output block `t` sits in the result. -/
theorem out_emb (t : Fin cfg1.N) (p : Fin 256) (u : Fin 1) :
    ((cfg1.win 8).blk t).view.emb (ix2 p u) = ix2 (row t p) u := by
  obtain ⟨-, -, -, -, -, -, -, -, -, -, -, -, -, e0, e1⟩ := idx_facts t
  funext a
  apply Fin.ext
  match a with
  | ⟨0, _⟩ => show win1_8.index t (0 : Fin 2) * 256 + 1 * p.val = t.val * 256 + p.val; omega
  | ⟨1, _⟩ => show win1_8.index t (1 : Fin 2) * 1 + 1 * u.val = u.val; omega

/-! ## What a point writes back, and the whole array -/

/-- The stored value at row `p` of block `t` is the result at that row's place in the array: the composed layers'
    row `t·256 + p` only reads that row of the pooled rows and of the protein embedding. -/
theorem flushed_at (c : Dev nD) (t : Fin cfg1.N) (p : Fin 256) (u : Fin 1) :
    k1_pay1 (F := Ideal) (iblk1 V c 0 t) (iblk1 V c 1 t) (iblk1 V c 2 t) (iblk1 V c 3 t) (iblk1 V c 4 t) (iblk1 V c 5 t)
        (iblk1 V c 6 t) (iblk1 V c 7 t) (ix2 p u)
      = G V c (((cfg1.win 8).blk t).view.emb (ix2 p u)) := by
  refine (Cert.KernelIdeal.Bodies.fuse_block _ _ _ _ _ _ _ _ p u).trans ?_
  rw [out_emb]
  exact headChainAt_congr _ _ _ _ _ _ _ _ _ _ _ _ _ _ _ _ p (row t p) (pooled_blk V c t p) (prot_blk V c t p)
    (wp_blk V c t) (bp_blk V c t) (wi_blk V c t) (bi_blk V c t) (wo_blk V c t) (bo_blk V c t)

/-- WHAT POINT `t` WRITES BACK is block `t` of the result `G`. -/
theorem flushed_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  unfold out1_8
  rw [View.canon_unit_zero hz]
  simp only [View.ld_unit_zero (S := S256x256) hz, View.ld_unit_zero (S := S256x1280) hz,
    View.ld_unit_zero (S := S1280x256) hz, View.ld_unit_zero (S := S512x256) hz, View.ld_unit_zero (S := S256x1) hz,
    View.ld_unit_zero (S := S256) hz1, View.ld_unit_zero (S := S1) hz1]
  funext j
  show k1_pay1 (F := Ideal) (iblk1 V c 0 t) (iblk1 V c 1 t) (iblk1 V c 2 t) (iblk1 V c 3 t) (iblk1 V c 4 t) (iblk1 V c 5 t)
      (iblk1 V c 6 t) (iblk1 V c 7 t) j
      = G V c (((cfg1.win 8).blk t).view.emb j)
  obtain ⟨p, q, rfl⟩ : ∃ (p : Fin 256) (q : Fin 1), j = ix2 p q := ⟨j 0, j 1, eq_ix2 j⟩
  exact flushed_at V c t p q

/-- An index of the array is in point `t`'s block iff each coordinate is in the block's range on its axis. -/
theorem mem_blk (t : Fin cfg1.N) (i : S1024x1.Idx) :
    i ∈ ((cfg1.win 8).blk t).view.set ↔ ∀ a : Fin 2, win1_8.index t a * S256x1.size a ≤ (i a).val
      ∧ (i a).val < win1_8.index t a * S256x1.size a + S256x1.size a := by
  show i ∈ ((View.whole main_v36).slice (win1_8.rect t)).set ↔ _
  rw [View.set_slice_whole, Rect.mem_set_unit]
  exact Iff.rfl

/-- Every entry of the result is in some point's block: row `r` is in block `r / 256`. -/
theorem cover (i : S1024x1.Idx) :
    ∃ t : Fin cfg1.N, (cfg1.win 8).flush t = true ∧ i ∈ ((cfg1.win 8).blk t).view.set := by
  have hi0 : (i 0).val < 1024 := (i 0).isLt
  have hi1 : (i 1).val < 1 := (i 1).isLt
  have hN : grid1.N = 4 := N_1
  let t : Fin cfg1.N := ⟨(i 0).val / 256, by show (i 0).val / 256 < grid1.N; omega⟩
  obtain ⟨-, -, -, -, -, -, -, -, -, -, -, -, -, e0, e1⟩ := idx_facts t
  have ht : t.val = (i 0).val / 256 := rfl
  refine ⟨t, flush1_8 t, ?_⟩
  rw [mem_blk]
  intro a
  match a with
  | ⟨0, _⟩ => show win1_8.index t (0 : Fin 2) * 256 ≤ (i 0).val ∧ (i 0).val < win1_8.index t (0 : Fin 2) * 256 + 256; omega
  | ⟨1, _⟩ => show win1_8.index t (1 : Fin 2) * 1 ≤ (i 1).val ∧ (i 1).val < win1_8.index t (1 : Fin 2) * 1 + 1; omega

/-- THE RESULT after the fusion kernel's pipeline: the composed layers of the arrays the region finds. -/
theorem final (c : Dev nD) : (dat1 V c).arrAt 8 cfg1.N = G V c :=
  (dat1 V c).arrAt_eq_of_cover 8 (G V c) (fun t _ => flushed_eq V c t) (cover)

end Cert.KernelIdeal.FusionRegion

end
-- ==== Proof.RefStages.lean ====
/-
  The reference's stages as the row-wise layer maps, on the extended reals.

  Read at row `r`, the reference's node stage is the graph layer of the node features and the neighbour means — its
  sum is grouped (aggr · Wl + bl) + x · Wr where the layer map groups (aggr · Wl + x · Wr) + bl; addition on the
  extended reals is commutative and associative, so the two agree with no finiteness assumption — and its result is
  protein layer, join with the pooled rows, interaction layer and head composed, of the pooled stage and the arguments.
  Each host product is the plain sum of products, each bias is a vector placed as a row and broadcast down the rows.
-/
import proofs.«105943_j12661563588711_1_alg».proof.Proof.Gen.ReferenceIdeal.Read
import proofs.«105943_j12661563588711_1_alg».proof.Proof.RowMaps
import proofs.«105943_j12661563588711_1_alg».proof.Proof.LibStack

noncomputable section

namespace Cert.ReferenceIdeal.Stages

open Idealize.ShloMosaic Idealize.ShloMosaic.ValueIdx Cert.ReferenceIdeal Cert.ReferenceIdeal.Gen Cert.ReferenceIdeal.Read Cert.RowMaps

variable (x0 : (⟨S50000x64, .f32⟩ : BufTy).Contents (Elt Ideal)) (x1 : (⟨S1024x1280, .f32⟩ : BufTy).Contents (Elt Ideal))
  (x2 : (⟨S64x256, .f32⟩ : BufTy).Contents (Elt Ideal)) (x3 : (⟨S256, .f32⟩ : BufTy).Contents (Elt Ideal))
  (x4 : (⟨S64x256, .f32⟩ : BufTy).Contents (Elt Ideal)) (x5 : (⟨S1280x256, .f32⟩ : BufTy).Contents (Elt Ideal))
  (x6 : (⟨S256, .f32⟩ : BufTy).Contents (Elt Ideal)) (x7 : (⟨S512x256, .f32⟩ : BufTy).Contents (Elt Ideal))
  (x8 : (⟨S256, .f32⟩ : BufTy).Contents (Elt Ideal)) (x9 : (⟨S256x1, .f32⟩ : BufTy).Contents (Elt Ideal))
  (x10 : (⟨S1, .f32⟩ : BufTy).Contents (Elt Ideal)) (x11 : (⟨S2x800000, .i32⟩ : BufTy).Contents (Elt Ideal))
  (x12 : (⟨S50000, .i32⟩ : BufTy).Contents (Elt Ideal))

/-- The node stage at row `r`, feature `q`: the graph layer of the node features and the neighbour means. -/
theorem drug_apply (r : Fin 50000) (q : Fin 256) :
    val_main_v29 (F := Ideal) x0 x2 x3 x4 x11 (ix2 r q)
      = sageAt x0 (val_main_v22 (F := Ideal) x0 x11) x2 x3 x4 r q := by
  rw [val_main_v29_apply, val_main_v28_apply, val_main_v26_apply, val_main_v23_apply, val_main_v27_apply,
    val_main_v25_apply, val_main_v24_apply, val_main_call0_v0_apply, val_main_call0_cst_apply]
  generalize val_main_v22 (F := Ideal) x0 x11 = aggr
  have el (k : Fin 64) : lidx_main_v23 (ix2 r q) k = ix2 r k :=
    funext fun a => Fin.ext (by match a with | ⟨0, _⟩ => rfl | ⟨1, _⟩ => rfl)
  have er (k : Fin 64) : ridx_main_v23 (ix2 r q) k = ix2 k q :=
    funext fun a => Fin.ext (by match a with | ⟨0, _⟩ => rfl | ⟨1, _⟩ => rfl)
  have el' (k : Fin 64) : lidx_main_v27 (ix2 r q) k = ix2 r k :=
    funext fun a => Fin.ext (by match a with | ⟨0, _⟩ => rfl | ⟨1, _⟩ => rfl)
  have er' (k : Fin 64) : ridx_main_v27 (ix2 r q) k = ix2 k q :=
    funext fun a => Fin.ext (by match a with | ⟨0, _⟩ => rfl | ⟨1, _⟩ => rfl)
  have eb : idx_main_v24 (idx_main_v25 (ix2 r q)) = ix1 q :=
    funext fun a => Fin.ext (by match a with | ⟨0, _⟩ => rfl)
  simp only [el, er, el', er', eb, Ideal.maximumf_def, Ideal.addf_def, Ideal.ofBits_def]
  unfold sageAt
  rw [add_right_comm]

/-- The protein stage at row `r`, feature `q`. -/
theorem protein_apply (r : Fin 1024) (q : Fin 256) :
    val_main_v45 (F := Ideal) x1 x5 x6 (ix2 r q) = proteinAt x1 x5 x6 r q := by
  rw [val_main_v45_apply, val_main_v42_apply, val_main_v44_apply, val_main_v43_apply]
  have el (k : Fin 1280) : lidx_main_v42 (ix2 r q) k = ix2 r k :=
    funext fun a => Fin.ext (by match a with | ⟨0, _⟩ => rfl | ⟨1, _⟩ => rfl)
  have er (k : Fin 1280) : ridx_main_v42 (ix2 r q) k = ix2 k q :=
    funext fun a => Fin.ext (by match a with | ⟨0, _⟩ => rfl | ⟨1, _⟩ => rfl)
  have eb : idx_main_v43 (idx_main_v44 (ix2 r q)) = ix1 q :=
    funext fun a => Fin.ext (by match a with | ⟨0, _⟩ => rfl)
  simp only [el, er, eb, Ideal.addf_def]
  rfl

/-- The joined stage at row `r`, feature `j`: the pooled stage below feature 256, the protein stage from there on. -/
theorem joined_apply (r : Fin 1024) (j : Fin 512) :
    val_main_v46 (F := Ideal) x0 x1 x2 x3 x4 x5 x6 x11 x12 (ix2 r j)
      = joinAt (fun r q => val_main_v41 (F := Ideal) x0 x2 x3 x4 x11 x12 (ix2 r q)) (proteinAt x1 x5 x6) r j := by
  unfold val_main_v46 joinAt
  generalize val_main_v41 (F := Ideal) x0 x2 x3 x4 x11 x12 = pooled
  split
  · rename_i h
    exact Cert.LibStack.beside_left (a := 1024) (b₁ := 256) (b₂ := 256) (t := 512) pooled _
      concatenates_S1024x256_S1024x256_S1024x512_d1 r ⟨j.val, h⟩ j rfl
  · rename_i h
    refine (Cert.LibStack.beside_right (a := 1024) (b₁ := 256) (b₂ := 256) (t := 512) pooled _
      concatenates_S1024x256_S1024x256_S1024x512_d1 r ⟨j.val - 256, by have := j.isLt; omega⟩ j
      (by show j.val = j.val - 256 + 256; omega)).trans ?_
    exact protein_apply x1 x5 x6 r _

/-- The interaction stage at row `r`, feature `k`. -/
theorem inter_apply (r : Fin 1024) (k : Fin 256) :
    val_main_v51 (F := Ideal) x0 x1 x2 x3 x4 x5 x6 x7 x8 x11 x12 (ix2 r k)
      = interAt (joinAt (fun r q => val_main_v41 (F := Ideal) x0 x2 x3 x4 x11 x12 (ix2 r q)) (proteinAt x1 x5 x6))
          x7 x8 r k := by
  rw [val_main_v51_apply, val_main_v50_apply, val_main_v47_apply, val_main_v49_apply, val_main_v48_apply,
    val_main_call1_v0_apply, val_main_call1_cst_apply]
  have el (j : Fin 512) : lidx_main_v47 (ix2 r k) j = ix2 r j :=
    funext fun a => Fin.ext (by match a with | ⟨0, _⟩ => rfl | ⟨1, _⟩ => rfl)
  have er (j : Fin 512) : ridx_main_v47 (ix2 r k) j = ix2 j k :=
    funext fun a => Fin.ext (by match a with | ⟨0, _⟩ => rfl | ⟨1, _⟩ => rfl)
  have eb : idx_main_v48 (idx_main_v49 (ix2 r k)) = ix1 k :=
    funext fun a => Fin.ext (by match a with | ⟨0, _⟩ => rfl)
  simp only [el, er, eb, Ideal.maximumf_def, Ideal.addf_def, Ideal.ofBits_def, joined_apply]
  rfl

/-- The result at row `r` (its one column): the composed layers of the pooled stage and the arguments. -/
theorem out_apply (r : Fin 1024) (u : Fin 1) :
    val_main_v55 (F := Ideal) x0 x1 x2 x3 x4 x5 x6 x7 x8 x9 x10 x11 x12 (ix2 r u)
      = headChainAt (val_main_v41 (F := Ideal) x0 x2 x3 x4 x11 x12) x1 x5 x6 x7 x8 x9 x10 r := by
  obtain rfl : u = 0 := Subsingleton.elim _ _
  rw [val_main_v55_apply, val_main_v52_apply, val_main_v54_apply, val_main_v53_apply]
  have el (k : Fin 256) : lidx_main_v52 (ix2 r (0 : Fin 1)) k = ix2 r k :=
    funext fun a => Fin.ext (by match a with | ⟨0, _⟩ => rfl | ⟨1, _⟩ => rfl)
  have er (k : Fin 256) : ridx_main_v52 (ix2 r (0 : Fin 1)) k = ix2 k (0 : Fin 1) :=
    funext fun a => Fin.ext (by match a with | ⟨0, _⟩ => rfl | ⟨1, _⟩ => rfl)
  have eb : idx_main_v53 (idx_main_v54 (ix2 r (0 : Fin 1))) = ix1 (0 : Fin 1) :=
    funext fun a => Fin.ext (by match a with | ⟨0, _⟩ => rfl)
  simp only [el, er, eb, Ideal.addf_def, inter_apply]
  rfl

end Cert.ReferenceIdeal.Stages

end
-- ==== Proof.KernelValue.lean ====
/-
  The idealized kernel's result array is the reference's result function of the launch arguments.

  Read back through the four segments: the result is the fusion kernel's array, the composed layers of what that
  region finds; it finds the arguments as launched and, in its first operand, the pooled node stage; the pooling
  stretch finds the graph kernel's array, the graph layer of what THAT region finds: the arguments as launched and the
  neighbour means. On the reference's side the node stage and the result are the same row-wise maps of the same
  inputs (the node stage up to regrouping one sum of three terms), and the two host chains are the reference's own.
-/
import proofs.«105943_j12661563588711_1_alg».proof.Proof.HostSide
import proofs.«105943_j12661563588711_1_alg».proof.Proof.GraphRegion
import proofs.«105943_j12661563588711_1_alg».proof.Proof.FusionRegion
import proofs.«105943_j12661563588711_1_alg».proof.Proof.RefStages

set_option maxRecDepth 16384

noncomputable section

namespace Cert.KernelIdeal.ResultValue

open Idealize.ShloMosaic Idealize.ShloMosaic.TcCoe Idealize.ShloMosaic.ValueIdx
open Idealize.SL Idealize.SL.Sem
open Cert.KernelIdeal Cert.KernelIdeal.Gen Cert.RowMaps

variable (m : (ℓ : Loc nD τ sig) → Buf (Elt Ideal) ℓ) (ρ : Dev nD → PrngReg)

/-- The node stage the pooling stretch finds is the reference's node stage of the launch arguments. -/
theorem node_stage (c : Dev nD) :
    (W2 m ρ c (Proc.devRef .tc main_v23) : S50000x256.Idx → Elt Ideal .f32)
      = Cert.ReferenceIdeal.Read.val_main_v29 (F := Ideal) (m ((c : Thread nD τ).loc main_arg0))
          (m ((c : Thread nD τ).loc main_arg2)) (m ((c : Thread nD τ).loc main_arg3))
          (m ((c : Thread nD τ).loc main_arg4)) (m ((c : Thread nD τ).loc main_arg11)) := by
  refine (W2_arr m ρ c 5).trans ((Cert.KernelIdeal.GraphRegion.final (V1 m ρ) c).trans ?_)
  funext i
  obtain ⟨r, q, rfl⟩ : ∃ (r : Fin 50000) (q : Fin 256), i = ix2 r q := ⟨i 0, i 1, eq_ix2 i⟩
  refine Eq.trans ?_ (Cert.ReferenceIdeal.Stages.drug_apply _ _ _ _ _ r q).symm
  obtain ⟨h0, -, h2, h3, h4, -⟩ := Cert.KernelIdeal.HostSide.W1_arg m ρ c
  unfold Cert.KernelIdeal.GraphRegion.G
  exact sageAt_congr _ _ _ _ _ _ _ _ _ _ r r (fun e => congrFun h0 _)
    (fun e => congrFun (Cert.KernelIdeal.HostSide.aggr_entry m ρ c) _)
    (fun e q => congrFun h2 _) (fun q => congrFun h3 _) (fun e q => congrFun h4 _) q

/-- THE RESULT ARRAY at the last boundary: the reference's result function of the launch arguments. -/
theorem result_value (c : Dev nD) :
    (W4 m ρ c (Proc.devRef .tc main_v36) : S1024x1.Idx → Elt Ideal .f32)
      = Cert.ReferenceIdeal.Read.val_main_v55 (F := Ideal) (m ((c : Thread nD τ).loc main_arg0))
          (m ((c : Thread nD τ).loc main_arg1)) (m ((c : Thread nD τ).loc main_arg2))
          (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8))
          (m ((c : Thread nD τ).loc main_arg9)) (m ((c : Thread nD τ).loc main_arg10))
          (m ((c : Thread nD τ).loc main_arg11)) (m ((c : Thread nD τ).loc main_arg12)) := by
  refine (W4_arr m ρ c 8).trans ((Cert.KernelIdeal.FusionRegion.final (V3 m ρ) c).trans ?_)
  funext i
  obtain ⟨r, u, rfl⟩ : ∃ (r : Fin 1024) (u : Fin 1), i = ix2 r u := ⟨i 0, i 1, eq_ix2 i⟩
  refine Eq.trans ?_ (Cert.ReferenceIdeal.Stages.out_apply _ _ _ _ _ _ _ _ _ _ _ _ _ r u).symm
  obtain ⟨g1, g5, g6, g7, g8, g9, g10, g12⟩ := Cert.KernelIdeal.HostSide.W2_arg m ρ c
  obtain ⟨k1, k5, k6, k7, k8, k9, k10⟩ := Cert.KernelIdeal.HostSide.W3_arg m ρ c
  have hp := Cert.KernelIdeal.HostSide.pooled_entry m ρ c _ _ _ _ _ _ (node_stage m ρ c) g12
  unfold Cert.KernelIdeal.FusionRegion.G
  exact headChainAt_congr _ _ _ _ _ _ _ _ _ _ _ _ _ _ _ _ r r (fun q => congrFun hp _)
    (fun l => congrFun (k1.trans g1) _) (fun l q => congrFun (k5.trans g5) _) (fun q => congrFun (k6.trans g6) _)
    (fun j k => congrFun (k7.trans g7) _) (fun k => congrFun (k8.trans g8) _) (fun k => congrFun (k9.trans g9) _)
    (congrFun (k10.trans g10) _)

end Cert.KernelIdeal.ResultValue

end
-- ==== Proof.lean ====
/-
  A graph layer with neighbour-mean aggregation, a per-graph mean pool and a fusion head, as two tiled kernels
  among host operations, against the plain array program: equal results on the extended reals.

  Both programs form the neighbour means of the node features along the edge list, apply the graph layer
  relu(aggr · Wl + x · Wr + bl) to every node, pool the node rows per graph, and apply to every graph
  relu([pooled | prot · Wp + bp] · Wi + bi) · Wo + bo. The kernel program runs the graph layer on blocks of 2000 node
  rows and the head on blocks of 256 graph rows; both layers are row-wise, so the blocks of the outputs are the
  layers of the blocks of the inputs and the written blocks cover the arrays. The two means are computed by the same
  host operations in both programs. The only regrouping is in the graph layer's sum of three terms,
  (aggr · Wl + x · Wr) + bl against (aggr · Wl + bl) + x · Wr, equal by commutativity and associativity of addition on
  the extended reals — so the precondition (finite inputs) is never used. The kernel's changes of float format are
  the identity on the extended reals, and its products into a zero accumulator are the plain sums.

  The three frames: the two kernel programs' by their segment-by-segment runs, the reference's by its run with the
  result dropped. The idealization rewrote nothing, so there is nothing to preserve.
-/
import proofs.«105943_j12661563588711_1_alg».proof.Defs
import proofs.«105943_j12661563588711_1_alg».proof.Proof.Gen.Kernel
import proofs.«105943_j12661563588711_1_alg».proof.Proof.Gen.Kernel.Skeleton
import proofs.«105943_j12661563588711_1_alg».proof.Proof.Gen.Kernel.Launch
import proofs.«105943_j12661563588711_1_alg».proof.Proof.Gen.Kernel.Points
import proofs.«105943_j12661563588711_1_alg».proof.Proof.Gen.Kernel.Frame
import proofs.«105943_j12661563588711_1_alg».proof.Proof.Gen.KernelIdeal
import proofs.«105943_j12661563588711_1_alg».proof.Proof.Gen.KernelIdeal.Skeleton
import proofs.«105943_j12661563588711_1_alg».proof.Proof.Gen.KernelIdeal.Launch
import proofs.«105943_j12661563588711_1_alg».proof.Proof.Gen.KernelIdeal.Points
import proofs.«105943_j12661563588711_1_alg».proof.Proof.Gen.KernelIdeal.Frame
import proofs.«105943_j12661563588711_1_alg».proof.Proof.Gen.ReferenceIdeal
import proofs.«105943_j12661563588711_1_alg».proof.Proof.Gen.ReferenceIdeal.Run
import proofs.«105943_j12661563588711_1_alg».proof.Proof.Gen.ReferenceIdeal.Read
import proofs.«105943_j12661563588711_1_alg».proof.Proof.Gen.Pre_finite_inputs
import proofs.«105943_j12661563588711_1_alg».proof.Proof.KernelRun
import proofs.«105943_j12661563588711_1_alg».proof.Proof.KernelValue
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's result function of the
    arguments in their result arrays: the kernel program by reading its run back through its four segments, the
    reference by its run. -/
theorem algebraic : Cert.algebraic_KernelIdeal_ReferenceIdeal := by
  intro m ρ m' ρ' _ hagree
  refine ⟨fun c => Cert.ReferenceIdeal.Read.val_main_v55 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.ResultValue.result_value m ρ c), (h c).2⟩)
      (Cert.KernelIdeal.RunAll.run_result m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12⟩ := hagree c
    rw [Cert.ReferenceIdeal.Read.val_main_v55_eq, a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
